-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x16 : Shape := ⟨2, ![256, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x16 .f32) (main_arg3 : FVec F S16 .f32) (main_arg4 : FVec F S16x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x16 : Shape := ⟨2, ![256, 16]⟩
abbrev S16 : Shape := ⟨1, ![16]⟩
abbrev S16x64 : Shape := ⟨2, ![16, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S5000x256 : Shape := ⟨2, ![5000, 256]⟩
abbrev S5000x16 : Shape := ⟨2, ![5000, 16]⟩
abbrev S1700000x16 : Shape := ⟨2, ![1700000, 16]⟩
abbrev S1x16 : Shape := ⟨2, ![1, 16]⟩
abbrev S100000x64 : Shape := ⟨2, ![100000, 64]⟩
abbrev S10000x16 : Shape := ⟨2, ![10000, 16]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x16, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x16, .f32⟩
  | .hbm, ⟨57, _⟩ => ⟨S1700000x16, .f32⟩
  | .hbm, ⟨58, _⟩ => ⟨S1700000x16, .f32⟩
  | .hbm, ⟨59, _⟩ => ⟨S_, .f32⟩
  | .hbm, ⟨60, _⟩ => ⟨S100000x16, .f32⟩
  | .hbm, ⟨61, _⟩ => ⟨S1700000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x64, .f32⟩
  | .hbm, ⟨70, _⟩ => ⟨S1700000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S16x64, .f32⟩
  | .local _ .vmem, ⟨8, _⟩ => ⟨S10000x64, .f32⟩
  | .local _ .vmem, ⟨9, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x64_S16x64_0_0 : ∀ a, (![0, 0] : Fin 2 → Nat) a + S16x64.size a ≤ S16x64.size a
  h_S16x64 : 0 < S16x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x16_S5000x16_1_0_0_1_n_n_wf : DotDims.WF S5000x256 S256x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x64_S10000x64_1_0_0_1_n_n_wf : DotDims.WF S10000x16 S16x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x16 : Shape := ⟨2, ![256, 16]⟩
abbrev S16 : Shape := ⟨1, ![16]⟩
abbrev S16x64 : Shape := ⟨2, ![16, 64]⟩
abbrev S64 : Shape := ⟨1, ![64]⟩
abbrev S1x1600000 : Shape := ⟨2, ![1, 1600000]⟩
abbrev S1600000 : Shape := ⟨1, ![1600000]⟩
abbrev S100000x16 : Shape := ⟨2, ![100000, 16]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x16, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x16, .f32⟩
  | .hbm, ⟨57, _⟩ => ⟨S1700000x16, .f32⟩
  | .hbm, ⟨58, _⟩ => ⟨S1700000x16, .f32⟩
  | .hbm, ⟨59, _⟩ => ⟨S_, .f32⟩
  | .hbm, ⟨60, _⟩ => ⟨S100000x16, .f32⟩
  | .hbm, ⟨61, _⟩ => ⟨S1700000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x64, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S1700000x1, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x64, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x16_S100000x16_1_0_0_1_n_n_wf : DotDims.WF S100000x256 S256x16 S100000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x64_S100000x64_1_0_0_1_n_n_wf : DotDims.WF S100000x16 S16x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  Two graph-convolution layers as ONE function of the six argument arrays.

  The graph has N = 100000 nodes and E = 1600000 directed edges (row 0 of the edge array: sources, row 1: targets); every
  node gets a self-loop, so the edge lists are the E given ends followed by 0 … N−1.  With  deg(v) = the number of edges into v,
  dinv(v) = deg(v)^(-1/2) where deg(v) > 0 and 0 elsewhere, and the edge weight  norm(j) = dinv(src j) · dinv(dst j),  one layer
  sends a node-feature matrix h and a bias b to
        out(v, c) = Σ_{j : dst j = v} norm(j) · h(src j, c)  +  b(c),
  a gather of rows, a scaling, and a scatter-add of rows.  The whole network is
        layer (relu (layer (x · W1) b1) · W2) b2 .
  The definitions below spell the layer with the host operations as the reference program composes them (a negative index wraps
  by N before a gather, as jnp's indexing does), so that the reference's composed result term is this function by
  unfolding, and the matrix products are left as PARAMETERS: the two programs differ only in how they compute the products.
-/
import proofs.«177318_j70669391888552_1_alg».proof.ReferenceIdeal
import proofs.«177318_j70669391888552_1_alg».proof.Proof.Gen.ReferenceIdeal

noncomputable section

namespace Cert.Gcn

open Idealize.ShloMosaic Cert.ReferenceIdeal Cert.ReferenceIdeal.Gen

variable {F : FTy → Type} [FloatOps F]

/-- The sources of the E given edges followed by the self-loops' 0 … N−1. -/
def srcs (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets of the E given edges followed by the self-loops' 0 … N−1. -/
def dsts (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node list as a gather's index column, a negative entry first wrapped by N. -/
def wrapped (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- A node list as a scatter's index column. -/
def column (v : IVec S1700000 32) : IVec S1700000x1 32 :=
  broadcastInDim S1700000x1 ![0] bcast_S1700000_S1700000x1_0 v

/-- deg(v): a one added at every edge's target. -/
def deg (e : IVec S2x1600000 32) : FVec F S100000 .f32 :=
  Host.scatterAdd scatter_S100000_S1700000x1_S1700000_n_0_0_1 (broadcastInDim S100000 ![] bcast_S_S100000 (constant S_ .f32 0x00000000#32)) (column (dsts e)) (broadcastInDim S1700000 ![] bcast_S_S1700000 (constant S_ .f32 0x3F800000#32))

/-- Where deg(v) > 0, as a mask. -/
def degPos (e : IVec S2x1600000 32) : IVec S100000 1 :=
  cmpf (F := F) .ogt (deg e) (broadcastInDim S100000 ![] bcast_S_S100000 (constant S_ .f32 0x00000000#32))

/-- deg(v)^(-1/2). -/
def degRsqrt (e : IVec S2x1600000 32) : FVec F S100000 .f32 :=
  Host.rsqrt (deg e)

/-- The scalar 0. -/
def zero0 : FVec F S_ .f32 := constant S_ .f32 0x00000000#32

/-- jnp.where(mask, a, z): a where the mask is set, the scalar z elsewhere. -/
def whereElse (pos : IVec S100000 1) (a : FVec F S100000 .f32) (z : FVec F S_ .f32) : FVec F S100000 .f32 :=
  select pos a (broadcastInDim S100000 ![] bcast_S_S100000 (id z))

/-- dinv(v) = deg(v)^(-1/2) where deg(v) > 0, and 0 elsewhere. -/
def dinv (e : IVec S2x1600000 32) : FVec F S100000 .f32 :=
  whereElse (degPos (F := F) e) (degRsqrt e) zero0

/-- Edge weights from per-node factors dv: w(j) = dv(s j) · dv(d j). -/
def weights (dv : FVec F S100000 .f32) (s d : IVec S1700000 32) : FVec F S1700000 .f32 :=
  mulf (Host.gather gather_S100000_S1700000x1_S1700000_n_0_n_n_0_1_1 dv (wrapped s)) (Host.gather gather_S100000_S1700000x1_S1700000_n_0_n_n_0_1_1 dv (wrapped d))

/-- norm(j) = dinv(src j) · dinv(dst j), per edge. -/
def norm (e : IVec S2x1600000 32) : FVec F S1700000 .f32 :=
  weights (dinv e) (srcs e) (dsts e)

/-- One layer's aggregation on 16 feature columns from edge lists s, d and edge weights w:
    out(v, c) = Σ_{j : d j = v} w(j) · h(s j, c) + b(c). -/
def aggregate16 (s d : IVec S1700000 32) (w : FVec F S1700000 .f32) (h : FVec F S100000x16 .f32) (b : FVec F S16 .f32) : FVec F S100000x16 .f32 :=
  addf (Host.scatterAdd scatter_S100000x16_S1700000x1_S1700000x16_1_0_0_1 (broadcastInDim S100000x16 ![] bcast_S_S100000x16 (constant S_ .f32 0x00000000#32)) (column d) (mulf (broadcastInDim S1700000x16 ![0, 1] bcast_S1700000x1_S1700000x16_0_1 (broadcastInDim S1700000x1 ![0] bcast_S1700000_S1700000x1_0 w)) (Host.gather gather_S100000x16_S1700000x1_S1700000x16_1_0_n_n_0_1_116 h (wrapped s)))) (broadcastInDim S100000x16 ![0, 1] bcast_S1x16_S100000x16_0_1 (broadcastInDim S1x16 ![1] bcast_S16_S1x16_1 b))

/-- The same on 64 feature columns. -/
def aggregate64 (s d : IVec S1700000 32) (w : FVec F S1700000 .f32) (h : FVec F S100000x64 .f32) (b : FVec F S64 .f32) : FVec F S100000x64 .f32 :=
  addf (Host.scatterAdd scatter_S100000x64_S1700000x1_S1700000x64_1_0_0_1 (broadcastInDim S100000x64 ![] bcast_S_S100000x64 (constant S_ .f32 0x00000000#32)) (column d) (mulf (broadcastInDim S1700000x64 ![0, 1] bcast_S1700000x1_S1700000x64_0_1 (broadcastInDim S1700000x1 ![0] bcast_S1700000_S1700000x1_0 w)) (Host.gather gather_S100000x64_S1700000x1_S1700000x64_1_0_n_n_0_1_164 h (wrapped s)))) (broadcastInDim S100000x64 ![0, 1] bcast_S1x64_S100000x64_0_1 (broadcastInDim S1x64 ![1] bcast_S64_S1x64_1 b))

/-- The first layer's aggregation over the graph of the edge array e. -/
def layer16 (e : IVec S2x1600000 32) (h : FVec F S100000x16 .f32) (b : FVec F S16 .f32) : FVec F S100000x16 .f32 :=
  aggregate16 (srcs e) (dsts e) (norm e) h b

/-- The second layer's aggregation over the graph of the edge array e. -/
def layer64 (e : IVec S2x1600000 32) (h : FVec F S100000x64 .f32) (b : FVec F S64 .f32) : FVec F S100000x64 .f32 :=
  aggregate64 (srcs e) (dsts e) (norm e) h b

/-- relu, entry by entry: the maximum with 0. -/
def relu16 (h : FVec F S100000x16 .f32) : FVec F S100000x16 .f32 :=
  maximumf h (broadcastInDim S100000x16 ![] bcast_S_S100000x16 (constant S_ .f32 0x00000000#32))

/-- The first product x · W1 as the host computes it. -/
def prod1 (x : FVec F S100000x256 .f32) (w : FVec F S256x16 .f32) : FVec F S100000x16 .f32 :=
  Host.dotGeneral dot_S100000x256_S256x16_S100000x16_1_0_0_1_n_n none x w

/-- The second product h · W2 as the host computes it. -/
def prod2 (h : FVec F S100000x16 .f32) (w : FVec F S16x64 .f32) : FVec F S100000x64 .f32 :=
  Host.dotGeneral dot_S100000x16_S16x64_S100000x64_1_0_0_1_n_n none h w

/-- The hidden features after the first layer, from the first product's value. -/
def hidden (e : IVec S2x1600000 32) (p1 : FVec F S100000x16 .f32) (b1 : FVec F S16 .f32) : FVec F S100000x16 .f32 :=
  relu16 (layer16 e p1 b1)

end Cert.Gcn

end
-- ==== Proof.RefIsSpec.lean ====
/-
  The reference program's result IS the two-layer function: its composed result term, with the edge lists, the degrees, the
  edge weights and each layer's gather / scale / scatter-add / bias named, is
        layer (relu (layer (x · W1) b1) · W2) b2
  with both products the host's.  (The reference recomputes the degrees and the edge weights for its second layer from the
  same edge array: the same term twice.)
-/
import proofs.«177318_j70669391888552_1_alg».proof.Proof.RefRun
import proofs.«177318_j70669391888552_1_alg».proof.Proof.Spec

set_option maxRecDepth 16384

noncomputable section

namespace Cert.Gcn

open Idealize.ShloMosaic Idealize.ShloMosaic.TcCoe Idealize.SL.Sem Cert.ReferenceIdeal Cert.ReferenceIdeal.Gen

variable {F : FTy → Type} [FloatOps F]

set_option maxHeartbeats 4000000 in
/-- The reference's result term is the two-layer function of its six argument arrays. -/
theorem reference_result (m : (ℓ : Loc nD τ sig) → Buf (Elt F) ℓ) (c : Dev nD) :
    Cert.ReferenceIdeal.ValueP.res_main_v90 m c
      = layer64 (m ((c.tc : Thread nD τ).loc main_arg1))
          (prod2 (hidden (m ((c.tc : Thread nD τ).loc main_arg1))
              (prod1 (m ((c.tc : Thread nD τ).loc main_arg0)) (m ((c.tc : Thread nD τ).loc main_arg2)))
              (m ((c.tc : Thread nD τ).loc main_arg3)))
            (m ((c.tc : Thread nD τ).loc main_arg4)))
          (m ((c.tc : Thread nD τ).loc main_arg5)) := by
  unfold Cert.ReferenceIdeal.ValueP.res_main_v90
  rfl

end Cert.Gcn

end
-- ==== Proof.Product.lean ====
/-
  The textbook product of two matrices on the extended reals, as a whole-array function: entry (p, q) of an [m, K] matrix
  times a [K, n] matrix is  Σ_k l(p, k) · r(k, q).
-/
import Idealize.ShloMosaic.PureOps.Ideal
import Idealize.ShloMosaic.Lib.ValueIdx

noncomputable section

namespace Cert.Gcn

open Idealize.ShloMosaic Idealize.ShloMosaic.ValueIdx

/-- Entry i = (p, q) of the product: the sum over the shared axis of the entries' products. -/
def matProd {m K n : ℕ} (l : (⟨2, ![m, K]⟩ : Shape).Idx → EReal) (r : (⟨2, ![K, n]⟩ : Shape).Idx → EReal) :
    (⟨2, ![m, n]⟩ : Shape).Idx → EReal :=
  fun i => ∑ k : Fin K, l (ix2 (i 0) k) * r (ix2 k (i 1))

theorem matProd_apply {m K n : ℕ} (l : (⟨2, ![m, K]⟩ : Shape).Idx → EReal) (r : (⟨2, ![K, n]⟩ : Shape).Idx → EReal)
    (p : Fin m) (q : Fin n) : matProd l r (ix2 p q) = ∑ k : Fin K, l (ix2 p k) * r (ix2 k q) := rfl

end Cert.Gcn

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.ProductIsHost.lean ====
/-
  The host's two products are the textbook ones: on the extended reals a `dot_general` contracting axis 1 of the left operand
  with axis 0 of the right one is, entry by entry,  Σ_k l(p, k) · r(k, q)  — so the reference's x · W1 and h · W2 are the
  same whole-array functions the kernel's two grids leave in their output arrays.
-/
import proofs.«177318_j70669391888552_1_alg».proof.Proof.Spec
import proofs.«177318_j70669391888552_1_alg».proof.Proof.Product
import proofs.«177318_j70669391888552_1_alg».proof.Proof.LibPlainMatmul

set_option maxRecDepth 16384

noncomputable section

namespace Cert.Gcn

open Idealize.ShloMosaic Idealize.ShloMosaic.ValueIdx Cert.ReferenceIdeal Cert.ReferenceIdeal.Gen

/-- The host's x · W1 is the textbook product. -/
theorem prod1_eq (x : FVec Ideal S100000x256 .f32) (w : FVec Ideal S256x16 .f32) :
    prod1 (F := Ideal) x w = matProd (m := 100000) (K := 256) (n := 16) x w := by
  funext i
  obtain ⟨p, q, rfl⟩ : ∃ (p : Fin 100000) (q : Fin 16), i = ix2 p q := ⟨i 0, i 1, eq_ix2 i⟩
  exact Cert.PlainMatmul.dotGeneral_apply (m := 100000) (K := 256) (n := 16)
    (dot_S100000x256_S256x16_S100000x16_1_0_0_1_n_n).wf none .single x w p q

/-- The host's h · W2 is the textbook product. -/
theorem prod2_eq (h : FVec Ideal S100000x16 .f32) (w : FVec Ideal S16x64 .f32) :
    prod2 (F := Ideal) h w = matProd (m := 100000) (K := 16) (n := 64) h w := by
  funext i
  obtain ⟨p, q, rfl⟩ : ∃ (p : Fin 100000) (q : Fin 64), i = ix2 p q := ⟨i 0, i 1, eq_ix2 i⟩
  exact Cert.PlainMatmul.dotGeneral_apply (m := 100000) (K := 16) (n := 64)
    (dot_S100000x16_S16x64_S100000x64_1_0_0_1_n_n).wf none .single h w p q

end Cert.Gcn

end
-- ==== Proof.KernelRun.lean ====
/-
  The idealized kernel program's run WITH its result: from any memory with zero counters every weakly fair execution of
  @main — three stretches of host operations, the first product's grid of 20 row blocks, two more stretches, the second
  product's grid of 10 row blocks, a last stretch — terminates, nothing faulting, with the result array at the last
  boundary's contents of its buffer and the six argument arrays as launched.  The boundary contents are the fold the
  generated frame module names: launch memory, each stretch's operations applied in order, each grid's output array at what
  its blocks' write-backs leave.  What that fold holds at the result buffer is read in the sibling modules.
-/
import proofs.«177318_j70669391888552_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every execution ends with the result buffer at the last boundary's contents and the arguments unchanged: the launch
    over @main's eight segments, the last thread state read against the final state at the result's buffer as at the
    arguments'. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.KernelBlocks0.lean ====
/-
  The first product's grid, read as a value.  The grid has 20 points; point t takes rows 5000·t … 5000·t + 4999 of x
  (all 256 columns) and the whole of W1, multiplies them (both rounded to bf16 on the way in: the identity on the extended
  reals) into a zero accumulator, and writes the [5000, 16] result back as rows 5000·t … of the output.  Entry (p, q) of
  point t's block is  Σ_k x(5000·t + p, k) · W1(k, q),  which is entry (5000·t + p, q) of the whole product x · W1; the 20
  blocks tile the output's 100000 rows, so the output array ends as x · W1 — whatever the contents V the grid is entered from.
-/
import proofs.«177318_j70669391888552_1_alg».proof.Proof.Gen.KernelIdeal.Frame
import proofs.«177318_j70669391888552_1_alg».proof.Proof.LibPlainMatmul
import proofs.«177318_j70669391888552_1_alg».proof.Proof.Product
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- Entry (p, q) of the body's stored value: the row p of the x block against the column q of W1. -/
theorem body0_apply (x0 : Vec Ideal S5000x256 .f32) (x1 : Vec Ideal S256x16 .f32) (p : Fin 5000) (q : Fin 16) :
    k0_pay1 (F := Ideal) x0 x1 (ix2 p q) = ∑ k : Fin 256, x0 (ix2 p k) * x1 (ix2 k q) := by
  unfold k0_pay1
  exact Cert.PlainMatmul.matmul_zero_apply (m := 5000) (K := 256) (n := 16) (φ₁ := .bf16) (φ₂ := .bf16)
    (dot_S5000x256_S256x16_S5000x16_1_0_0_1_n_n).wf none
    (truncf .bf16 x0 bitsLt_bf16_f32) (truncf .bf16 x1 bitsLt_bf16_f32) p q

/-- The printed index maps over the grid: the x block and the output block sit at the same block row, everything else at
    block 0. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block row 0 … 19 of the output is some point's. -/
theorem index_onto0 : ∀ q0 : Fin 20, ∃ t : Fin cfg0.N, win0_2.index t = ![q0.val, 0] :=
  (by decide +kernel : ∀ q0 : Fin 20, ∃ t : Fin grid0.N, win0_2.index t = ![q0.val, 0])

/-- What point t writes back is its block of the whole product. -/
theorem flushed0 (c : Dev nD) (t : Fin cfg0.N) :
    (dat0 (F := Ideal) V c).flushed 2 t
      = ((cfg0.win 2).blk t).view.read (Elt Ideal) (Cert.Gcn.matProd (m := 100000) (K := 256) (n := 16) (V c main_arg0) (V c main_arg2)) := by
  show (cfg0.win 2).cut (grid0.coords t) ((dat0 V c).after 2 t) = _
  rw [after0_2]
  unfold out0_2
  rw [View.canon_unit_zero origin2]
  simp only [View.ld_unit_zero (S := S5000x256) origin2, View.ld_unit_zero (S := S256x16) origin2]
  obtain ⟨e0, e1, e2, e3, e4, e5⟩ := index_facts0 t
  funext j
  obtain ⟨p, q, rfl⟩ : ∃ (p : Fin 5000) (q : Fin 16), j = ix2 p q := ⟨j 0, j 1, eq_ix2 j⟩
  show k0_pay1 (iblk0 V c 0 t) (iblk0 V c 1 t) (ix2 p q)
    = Cert.Gcn.matProd (m := 100000) (K := 256) (n := 16) (V c main_arg0) (V c main_arg2) (((cfg0.win 2).blk t).view.emb (ix2 p q))
  refine (body0_apply (iblk0 V c 0 t) (iblk0 V c 1 t) p q).trans ?_
  unfold Cert.Gcn.matProd
  refine Finset.sum_congr rfl fun k _ => ?_
  have hl : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hr : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 16 + 1 * q.val = win0_2.index t (1 : Fin 2) * 16 + 1 * q.val; omega
  exact congrArg₂ (fun a b : EReal => a * b)
    (congrArg (V c main_arg0 : S100000x256.Idx → EReal) hl)
    (congrArg (V c main_arg2 : S256x16.Idx → EReal) hr)

/-- An index of the output is in point t's block iff each coordinate is in the block's range on its axis. -/
theorem mem_block0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- The 20 blocks tile the output: row r is in block r / 5000. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := index_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- After the grid the output array is the whole product of the x and W1 arrays it was entered with. -/
theorem product0 (c : Dev nD) :
    (dat0 (F := Ideal) V c).arrAt 2 cfg0.N = Cert.Gcn.matProd (m := 100000) (K := 256) (n := 16) (V c main_arg0) (V c main_arg2) :=
  (dat0 V c).arrAt_eq_of_cover 2 _ (fun t _ => flushed0 V c t) cover0

end Cert.KernelIdeal.Blocks

end
-- ==== Proof.KernelBlocks1.lean ====
/-
  The second product's grid, read as a value.  The grid has 10 points; point t takes rows 10000·t … 10000·t + 9999 of the
  hidden features h (all 16 columns) and the whole of W2, multiplies them (both rounded to bf16 on the way in: the identity
  on the extended reals) into a zero accumulator, and writes the [10000, 64] result back as rows 10000·t … of the output.
  Entry (p, q) of point t's block is  Σ_k h(10000·t + p, k) · W2(k, q),  which is entry (10000·t + p, q) of the whole product
  h · W2; the 10 blocks tile the output's 100000 rows, so the output array ends as h · W2 — whatever the contents V the grid
  is entered from.
-/
import proofs.«177318_j70669391888552_1_alg».proof.Proof.Gen.KernelIdeal.Frame
import proofs.«177318_j70669391888552_1_alg».proof.Proof.LibPlainMatmul
import proofs.«177318_j70669391888552_1_alg».proof.Proof.Product
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin2b : (![0, 0] : Fin 2 → Nat) = fun _ => 0 := funext fun a => by fin_cases a <;> rfl

/-- Entry (p, q) of the body's stored value: the row p of the h block against the column q of W2. -/
theorem body1_apply (x0 : Vec Ideal S10000x16 .f32) (x1 : Vec Ideal S16x64 .f32) (p : Fin 10000) (q : Fin 64) :
    k1_pay1 (F := Ideal) x0 x1 (ix2 p q) = ∑ k : Fin 16, x0 (ix2 p k) * x1 (ix2 k q) := by
  unfold k1_pay1
  have hs : ∀ h, shapeCast S10000x16 x0 h = x0 := fun h => shapeCast_self x0 h
  refine (Cert.PlainMatmul.matmul_zero_apply (m := 10000) (K := 16) (n := 64) (φ₁ := .bf16) (φ₂ := .bf16)
    (dot_S10000x16_S16x64_S10000x64_1_0_0_1_n_n).wf none _ _ p q).trans ?_
  rw [hs]
  rfl

/-- The printed index maps over the grid: the h block and the output block sit at the same block row, everything else at
    block 0. -/
theorem index_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every block row 0 … 9 of the output is some point's. -/
theorem index_onto1 : ∀ q0 : Fin 10, ∃ t : Fin cfg1.N, win1_2.index t = ![q0.val, 0] :=
  (by decide +kernel : ∀ q0 : Fin 10, ∃ t : Fin grid1.N, win1_2.index t = ![q0.val, 0])

/-- What point t writes back is its block of the whole product. -/
theorem flushed1 (c : Dev nD) (t : Fin cfg1.N) :
    (dat1 (F := Ideal) V c).flushed 2 t
      = ((cfg1.win 2).blk t).view.read (Elt Ideal) (Cert.Gcn.matProd (m := 100000) (K := 16) (n := 64) (V c main_v47) (V c main_arg4)) := by
  show (cfg1.win 2).cut (grid1.coords t) ((dat1 V c).after 2 t) = _
  rw [after1_2]
  unfold out1_2
  rw [View.canon_unit_zero origin2b]
  simp only [View.ld_unit_zero (S := S10000x16) origin2b, View.ld_unit_zero (S := S16x64) origin2b]
  obtain ⟨e0, e1, e2, e3, e4, e5⟩ := index_facts1 t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = Cert.Gcn.matProd (m := 100000) (K := 16) (n := 64) (V c main_v47) (V c main_arg4) (((cfg1.win 2).blk t).view.emb (ix2 p q))
  refine (body1_apply (iblk1 V c 0 t) (iblk1 V c 1 t) p q).trans ?_
  unfold Cert.Gcn.matProd
  refine Finset.sum_congr rfl fun k _ => ?_
  have hl : ((cfg1.win 0).blk t).view.emb (ix2 p k) = ix2 ((((cfg1.win 2).blk t).view.emb (ix2 p q)) 0) k := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 16 + 1 * k.val = k.val; omega
  have hr : ((cfg1.win 1).blk t).view.emb (ix2 k q) = ix2 k ((((cfg1.win 2).blk t).view.emb (ix2 p q)) 1) := by
    funext a; apply Fin.ext
    match a with
    | ⟨0, _⟩ => show win1_1.index t (0 : Fin 2) * 16 + 1 * k.val = k.val; omega
    | ⟨1, _⟩ => show win1_1.index t (1 : Fin 2) * 64 + 1 * q.val = win1_2.index t (1 : Fin 2) * 64 + 1 * q.val; omega
  exact congrArg₂ (fun a b : EReal => a * b)
    (congrArg (V c main_v47 : S100000x16.Idx → EReal) hl)
    (congrArg (V c main_arg4 : S16x64.Idx → EReal) hr)

/-- An index of the output is in point t's block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v48).slice (win1_2.rect t)).set ↔ _
  rw [View.set_slice_whole, Rect.mem_set_unit]
  exact Iff.rfl

/-- The 10 blocks tile the output: row r is in block r / 10000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the grid the output array is the whole product of the h and W2 arrays it was entered with. -/
theorem product1 (c : Dev nD) :
    (dat1 (F := Ideal) V c).arrAt 2 cfg1.N = Cert.Gcn.matProd (m := 100000) (K := 16) (n := 64) (V c main_v47) (V c main_arg4) :=
  (dat1 V c).arrAt_eq_of_cover 2 _ (fun t _ => flushed1 V c t) cover1

end Cert.KernelIdeal.Blocks

end
-- ==== Proof.KernelStretches.lean ====
/-
  The idealized kernel program's six stretches of host operations, each read as its operations composed, from ANY contents V
  of the buffers the stretch is entered with: what it leaves in the buffers later parts of the program read, and that it
  leaves alone the buffers it does not write.  Stated per stretch so that each equation is between small terms.
-/
import proofs.«177318_j70669391888552_1_alg».proof.Proof.Gen.KernelIdeal.Frame
import proofs.«177318_j70669391888552_1_alg».proof.Proof.Spec
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## Each stretch of host operations, from ANY contents V of the buffers it is entered with -/

set_option maxHeartbeats 1000000 in
/-- The source list: the edge array's row 0, then 0 … N−1. -/
theorem s0_srcs (V : Valuation τ sig (Elt Ideal)) :
    after (hostOps0 (F := Ideal)) V (Proc.devRef .tc main_v5) = Cert.Gcn.srcs (V (Proc.devRef .tc main_arg1)) := by
  after_results_simp <;> rfl
set_option maxHeartbeats 1000000 in
/-- The target list: the edge array's row 1, then 0 … N−1. -/
theorem s0_dsts (V : Valuation τ sig (Elt Ideal)) :
    after (hostOps0 (F := Ideal)) V (Proc.devRef .tc main_v6) = Cert.Gcn.dsts (V (Proc.devRef .tc main_arg1)) := by
  after_results_simp <;> rfl
set_option maxHeartbeats 1000000 in
/-- Where the degree is positive. -/
theorem s0_degPos (V : Valuation τ sig (Elt Ideal)) :
    after (hostOps0 (F := Ideal)) V (Proc.devRef .tc main_v12) = Cert.Gcn.degPos (F := Ideal) (V (Proc.devRef .tc main_arg1)) := by
  after_results_simp <;> rfl
set_option maxHeartbeats 1000000 in
/-- The degree to the power −1/2. -/
theorem s0_degRsqrt (V : Valuation τ sig (Elt Ideal)) :
    after (hostOps0 (F := Ideal)) V (Proc.devRef .tc main_v13) = Cert.Gcn.degRsqrt (F := Ideal) (V (Proc.devRef .tc main_arg1)) := by
  after_results_simp <;> rfl
set_option maxHeartbeats 1000000 in
/-- The scalar 0 of jnp.where's other branch. -/
theorem s0_zero (V : Valuation τ sig (Elt Ideal)) :
    after (hostOps0 (F := Ideal)) V (Proc.devRef .tc main_cst_2) = Cert.Gcn.zero0 (F := Ideal) := by
  after_results_simp <;> rfl
set_option maxHeartbeats 1000000 in
/-- This stretch does not write this buffer. -/
theorem keep0_arg0 (V : Valuation τ sig (Elt Ideal)) :
    after (hostOps0 (F := Ideal)) V (Proc.devRef .tc main_arg0) = V (Proc.devRef .tc main_arg0) := by
  after_results_simp <;> rfl
set_option maxHeartbeats 1000000 in
/-- This stretch does not write this buffer. -/
theorem keep0_arg2 (V : Valuation τ sig (Elt Ideal)) :
    after (hostOps0 (F := Ideal)) V (Proc.devRef .tc main_arg2) = V (Proc.devRef .tc main_arg2) := by
  after_results_simp <;> rfl
set_option maxHeartbeats 1000000 in
/-- This stretch does not write this buffer. -/
theorem keep0_arg3 (V : Valuation τ sig (Elt Ideal)) :
    after (hostOps0 (F := Ideal)) V (Proc.devRef .tc main_arg3) = V (Proc.devRef .tc main_arg3) := by
  after_results_simp <;> rfl
set_option maxHeartbeats 1000000 in
/-- This stretch does not write this buffer. -/
theorem keep0_arg4 (V : Valuation τ sig (Elt Ideal)) :
    after (hostOps0 (F := Ideal)) V (Proc.devRef .tc main_arg4) = V (Proc.devRef .tc main_arg4) := by
  after_results_simp <;> rfl
set_option maxHeartbeats 1000000 in
/-- This stretch does not write this buffer. -/
theorem keep0_arg5 (V : Valuation τ sig (Elt Ideal)) :
    after (hostOps0 (F := Ideal)) V (Proc.devRef .tc main_arg5) = V (Proc.devRef .tc main_arg5) := by
  after_results_simp <;> rfl
set_option maxHeartbeats 1000000 in
/-- jnp.where: the power where the degree is positive, 0 elsewhere. -/
theorem s01_dinv (V : Valuation τ sig (Elt Ideal)) :
    after (hostOps0_1 (F := Ideal)) V (Proc.devRef .tc main_v14) = Cert.Gcn.whereElse (F := Ideal) (V (Proc.devRef .tc main_v12)) (V (Proc.devRef .tc main_v13)) (V (Proc.devRef .tc main_cst_2)) := by
  after_results_simp <;> rfl
set_option maxHeartbeats 1000000 in
/-- This stretch does not write this buffer. -/
theorem keep0_1_v5 (V : Valuation τ sig (Elt Ideal)) :
    after (hostOps0_1 (F := Ideal)) V (Proc.devRef .tc main_v5) = V (Proc.devRef .tc main_v5) := by
  after_results_simp <;> rfl
set_option maxHeartbeats 1000000 in
/-- This stretch does not write this buffer. -/
theorem keep0_1_v6 (V : Valuation τ sig (Elt Ideal)) :
    after (hostOps0_1 (F := Ideal)) V (Proc.devRef .tc main_v6) = V (Proc.devRef .tc main_v6) := by
  after_results_simp <;> rfl
set_option maxHeartbeats 1000000 in
/-- This stretch does not write this buffer. -/
theorem keep0_1_arg0 (V : Valuation τ sig (Elt Ideal)) :
    after (hostOps0_1 (F := Ideal)) V (Proc.devRef .tc main_arg0) = V (Proc.devRef .tc main_arg0) := by
  after_results_simp <;> rfl
set_option maxHeartbeats 1000000 in
/-- This stretch does not write this buffer. -/
theorem keep0_1_arg2 (V : Valuation τ sig (Elt Ideal)) :
    after (hostOps0_1 (F := Ideal)) V (Proc.devRef .tc main_arg2) = V (Proc.devRef .tc main_arg2) := by
  after_results_simp <;> rfl
set_option maxHeartbeats 1000000 in
/-- This stretch does not write this buffer. -/
theorem keep0_1_arg3 (V : Valuation τ sig (Elt Ideal)) :
    after (hostOps0_1 (F := Ideal)) V (Proc.devRef .tc main_arg3) = V (Proc.devRef .tc main_arg3) := by
  after_results_simp <;> rfl
set_option maxHeartbeats 1000000 in
/-- This stretch does not write this buffer. -/
theorem keep0_1_arg4 (V : Valuation τ sig (Elt Ideal)) :
    after (hostOps0_1 (F := Ideal)) V (Proc.devRef .tc main_arg4) = V (Proc.devRef .tc main_arg4) := by
  after_results_simp <;> rfl
set_option maxHeartbeats 1000000 in
/-- This stretch does not write this buffer. -/
theorem keep0_1_arg5 (V : Valuation τ sig (Elt Ideal)) :
    after (hostOps0_1 (F := Ideal)) V (Proc.devRef .tc main_arg5) = V (Proc.devRef .tc main_arg5) := by
  after_results_simp <;> rfl
set_option maxHeartbeats 1000000 in
/-- The edge weights from the per-node factors. -/
theorem s02_norm (V : Valuation τ sig (Elt Ideal)) :
    after (hostOps0_2 (F := Ideal)) V (Proc.devRef .tc main_v29) = Cert.Gcn.weights (F := Ideal) (V (Proc.devRef .tc main_v14)) (V (Proc.devRef .tc main_v5)) (V (Proc.devRef .tc main_v6)) := by
  after_results_simp <;> rfl
set_option maxHeartbeats 1000000 in
/-- This stretch does not write this buffer. -/
theorem keep0_2_v5 (V : Valuation τ sig (Elt Ideal)) :
    after (hostOps0_2 (F := Ideal)) V (Proc.devRef .tc main_v5) = V (Proc.devRef .tc main_v5) := by
  after_results_simp <;> rfl
set_option maxHeartbeats 1000000 in
/-- This stretch does not write this buffer. -/
theorem keep0_2_v6 (V : Valuation τ sig (Elt Ideal)) :
    after (hostOps0_2 (F := Ideal)) V (Proc.devRef .tc main_v6) = V (Proc.devRef .tc main_v6) := by
  after_results_simp <;> rfl
set_option maxHeartbeats 1000000 in
/-- This stretch does not write this buffer. -/
theorem keep0_2_arg0 (V : Valuation τ sig (Elt Ideal)) :
    after (hostOps0_2 (F := Ideal)) V (Proc.devRef .tc main_arg0) = V (Proc.devRef .tc main_arg0) := by
  after_results_simp <;> rfl
set_option maxHeartbeats 1000000 in
/-- This stretch does not write this buffer. -/
theorem keep0_2_arg2 (V : Valuation τ sig (Elt Ideal)) :
    after (hostOps0_2 (F := Ideal)) V (Proc.devRef .tc main_arg2) = V (Proc.devRef .tc main_arg2) := by
  after_results_simp <;> rfl
set_option maxHeartbeats 1000000 in
/-- This stretch does not write this buffer. -/
theorem keep0_2_arg3 (V : Valuation τ sig (Elt Ideal)) :
    after (hostOps0_2 (F := Ideal)) V (Proc.devRef .tc main_arg3) = V (Proc.devRef .tc main_arg3) := by
  after_results_simp <;> rfl
set_option maxHeartbeats 1000000 in
/-- This stretch does not write this buffer. -/
theorem keep0_2_arg4 (V : Valuation τ sig (Elt Ideal)) :
    after (hostOps0_2 (F := Ideal)) V (Proc.devRef .tc main_arg4) = V (Proc.devRef .tc main_arg4) := by
  after_results_simp <;> rfl
set_option maxHeartbeats 1000000 in
/-- This stretch does not write this buffer. -/
theorem keep0_2_arg5 (V : Valuation τ sig (Elt Ideal)) :
    after (hostOps0_2 (F := Ideal)) V (Proc.devRef .tc main_arg5) = V (Proc.devRef .tc main_arg5) := by
  after_results_simp <;> rfl
set_option maxHeartbeats 1000000 in
/-- The first product aggregated over the graph, plus b1. -/
theorem s1_layer (V : Valuation τ sig (Elt Ideal)) :
    after (hostOps1 (F := Ideal)) V (Proc.devRef .tc main_v46) = Cert.Gcn.aggregate16 (F := Ideal) (V (Proc.devRef .tc main_v5)) (V (Proc.devRef .tc main_v6)) (V (Proc.devRef .tc main_v29)) (V (Proc.devRef .tc main_v30)) (V (Proc.devRef .tc main_arg3)) := by
  after_results_simp <;> rfl
set_option maxHeartbeats 1000000 in
/-- This stretch does not write this buffer. -/
theorem keep1_v5 (V : Valuation τ sig (Elt Ideal)) :
    after (hostOps1 (F := Ideal)) V (Proc.devRef .tc main_v5) = V (Proc.devRef .tc main_v5) := by
  after_results_simp <;> rfl
set_option maxHeartbeats 1000000 in
/-- This stretch does not write this buffer. -/
theorem keep1_v6 (V : Valuation τ sig (Elt Ideal)) :
    after (hostOps1 (F := Ideal)) V (Proc.devRef .tc main_v6) = V (Proc.devRef .tc main_v6) := by
  after_results_simp <;> rfl
set_option maxHeartbeats 1000000 in
/-- This stretch does not write this buffer. -/
theorem keep1_v29 (V : Valuation τ sig (Elt Ideal)) :
    after (hostOps1 (F := Ideal)) V (Proc.devRef .tc main_v29) = V (Proc.devRef .tc main_v29) := by
  after_results_simp <;> rfl
set_option maxHeartbeats 1000000 in
/-- This stretch does not write this buffer. -/
theorem keep1_arg4 (V : Valuation τ sig (Elt Ideal)) :
    after (hostOps1 (F := Ideal)) V (Proc.devRef .tc main_arg4) = V (Proc.devRef .tc main_arg4) := by
  after_results_simp <;> rfl
set_option maxHeartbeats 1000000 in
/-- This stretch does not write this buffer. -/
theorem keep1_arg5 (V : Valuation τ sig (Elt Ideal)) :
    after (hostOps1 (F := Ideal)) V (Proc.devRef .tc main_arg5) = V (Proc.devRef .tc main_arg5) := by
  after_results_simp <;> rfl
set_option maxHeartbeats 1000000 in
/-- relu. -/
theorem s11_relu (V : Valuation τ sig (Elt Ideal)) :
    after (hostOps1_1 (F := Ideal)) V (Proc.devRef .tc main_v47) = Cert.Gcn.relu16 (F := Ideal) (V (Proc.devRef .tc main_v46)) := by
  after_results_simp <;> rfl
set_option maxHeartbeats 1000000 in
/-- This stretch does not write this buffer. -/
theorem keep1_1_v5 (V : Valuation τ sig (Elt Ideal)) :
    after (hostOps1_1 (F := Ideal)) V (Proc.devRef .tc main_v5) = V (Proc.devRef .tc main_v5) := by
  after_results_simp <;> rfl
set_option maxHeartbeats 1000000 in
/-- This stretch does not write this buffer. -/
theorem keep1_1_v6 (V : Valuation τ sig (Elt Ideal)) :
    after (hostOps1_1 (F := Ideal)) V (Proc.devRef .tc main_v6) = V (Proc.devRef .tc main_v6) := by
  after_results_simp <;> rfl
set_option maxHeartbeats 1000000 in
/-- This stretch does not write this buffer. -/
theorem keep1_1_v29 (V : Valuation τ sig (Elt Ideal)) :
    after (hostOps1_1 (F := Ideal)) V (Proc.devRef .tc main_v29) = V (Proc.devRef .tc main_v29) := by
  after_results_simp <;> rfl
set_option maxHeartbeats 1000000 in
/-- This stretch does not write this buffer. -/
theorem keep1_1_arg4 (V : Valuation τ sig (Elt Ideal)) :
    after (hostOps1_1 (F := Ideal)) V (Proc.devRef .tc main_arg4) = V (Proc.devRef .tc main_arg4) := by
  after_results_simp <;> rfl
set_option maxHeartbeats 1000000 in
/-- This stretch does not write this buffer. -/
theorem keep1_1_arg5 (V : Valuation τ sig (Elt Ideal)) :
    after (hostOps1_1 (F := Ideal)) V (Proc.devRef .tc main_arg5) = V (Proc.devRef .tc main_arg5) := by
  after_results_simp <;> rfl
set_option maxHeartbeats 1000000 in
/-- The second product aggregated over the graph, plus b2. -/
theorem s2_layer (V : Valuation τ sig (Elt Ideal)) :
    after (hostOps2 (F := Ideal)) V (Proc.devRef .tc main_v64) = Cert.Gcn.aggregate64 (F := Ideal) (V (Proc.devRef .tc main_v5)) (V (Proc.devRef .tc main_v6)) (V (Proc.devRef .tc main_v29)) (V (Proc.devRef .tc main_v48)) (V (Proc.devRef .tc main_arg5)) := by
  after_results_simp <;> rfl

end Cert.KernelIdeal.Fold

end
-- ==== Proof.KernelFold.lean ====
/-
  What the idealized kernel program's last boundary holds at the result buffer: the two-layer function of the arguments.

  Walking @main's fold from the launch memory.  The first three stretches of host operations build, from the edge array
  alone, the source list, the target list and the edge weights norm; the first grid then leaves x · W1 in its output array
  and touches nothing else; the next two stretches aggregate that product over the graph, add b1 and take relu — the hidden
  features —; the second grid leaves (hidden features) · W2; the last stretch aggregates that over the SAME lists and weights
  (computed once, before the first grid) and adds b2.  Each stretch is read as its operations composed; a buffer no later
  stretch or grid writes is carried unchanged.
-/
import proofs.«177318_j70669391888552_1_alg».proof.Proof.Gen.KernelIdeal.Frame
import proofs.«177318_j70669391888552_1_alg».proof.Proof.KernelBlocks0
import proofs.«177318_j70669391888552_1_alg».proof.Proof.KernelBlocks1
import proofs.«177318_j70669391888552_1_alg».proof.Proof.Spec
import proofs.«177318_j70669391888552_1_alg».proof.Proof.KernelStretches
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch (the edge lists, the degrees) -/

/-- The launch contents of a buffer are the launch memory's. -/
theorem w0 (c : Dev nD) (b : Ref sig .tc) : W0 m ρ c (Proc.devRef .tc b) = m ((c.tc : Thread nD τ).loc b) := rfl

theorem w1_srcs (c : Dev nD) : W1 m ρ c (Proc.devRef .tc main_v5) = Cert.Gcn.srcs (m ((c.tc : Thread nD τ).loc main_arg1)) := s0_srcs (W0 m ρ c)
theorem w1_dsts (c : Dev nD) : W1 m ρ c (Proc.devRef .tc main_v6) = Cert.Gcn.dsts (m ((c.tc : Thread nD τ).loc main_arg1)) := s0_dsts (W0 m ρ c)
theorem w1_degPos (c : Dev nD) : W1 m ρ c (Proc.devRef .tc main_v12) = Cert.Gcn.degPos (F := Ideal) (m ((c.tc : Thread nD τ).loc main_arg1)) := s0_degPos (W0 m ρ c)
theorem w1_degRsqrt (c : Dev nD) : W1 m ρ c (Proc.devRef .tc main_v13) = Cert.Gcn.degRsqrt (F := Ideal) (m ((c.tc : Thread nD τ).loc main_arg1)) := s0_degRsqrt (W0 m ρ c)
theorem w1_zero (c : Dev nD) : W1 m ρ c (Proc.devRef .tc main_cst_2) = Cert.Gcn.zero0 (F := Ideal) := s0_zero (W0 m ρ c)
theorem w1_arg0 (c : Dev nD) : W1 m ρ c (Proc.devRef .tc main_arg0) = m ((c.tc : Thread nD τ).loc main_arg0) := keep0_arg0 (W0 m ρ c)
theorem w1_arg2 (c : Dev nD) : W1 m ρ c (Proc.devRef .tc main_arg2) = m ((c.tc : Thread nD τ).loc main_arg2) := keep0_arg2 (W0 m ρ c)
theorem w1_arg3 (c : Dev nD) : W1 m ρ c (Proc.devRef .tc main_arg3) = m ((c.tc : Thread nD τ).loc main_arg3) := keep0_arg3 (W0 m ρ c)
theorem w1_arg4 (c : Dev nD) : W1 m ρ c (Proc.devRef .tc main_arg4) = m ((c.tc : Thread nD τ).loc main_arg4) := keep0_arg4 (W0 m ρ c)
theorem w1_arg5 (c : Dev nD) : W1 m ρ c (Proc.devRef .tc main_arg5) = m ((c.tc : Thread nD τ).loc main_arg5) := keep0_arg5 (W0 m ρ c)

/-! ## After jnp.where (the per-node factors) -/

/-- dinv: the power where the degree is positive, 0 elsewhere. -/
theorem w2_dinv (c : Dev nD) : W2 m ρ c (Proc.devRef .tc main_v14) = Cert.Gcn.dinv (F := Ideal) (m ((c.tc : Thread nD τ).loc main_arg1)) := by
  refine (s01_dinv (W1 m ρ c)).trans ?_
  rw [w1_degPos, w1_degRsqrt, w1_zero]
  rfl
theorem w2_srcs (c : Dev nD) : W2 m ρ c (Proc.devRef .tc main_v5) = Cert.Gcn.srcs (m ((c.tc : Thread nD τ).loc main_arg1)) :=
  (keep0_1_v5 (W1 m ρ c)).trans (w1_srcs m ρ c)
theorem w2_dsts (c : Dev nD) : W2 m ρ c (Proc.devRef .tc main_v6) = Cert.Gcn.dsts (m ((c.tc : Thread nD τ).loc main_arg1)) :=
  (keep0_1_v6 (W1 m ρ c)).trans (w1_dsts m ρ c)
theorem w2_arg0 (c : Dev nD) : W2 m ρ c (Proc.devRef .tc main_arg0) = m ((c.tc : Thread nD τ).loc main_arg0) :=
  (keep0_1_arg0 (W1 m ρ c)).trans (w1_arg0 m ρ c)
theorem w2_arg2 (c : Dev nD) : W2 m ρ c (Proc.devRef .tc main_arg2) = m ((c.tc : Thread nD τ).loc main_arg2) :=
  (keep0_1_arg2 (W1 m ρ c)).trans (w1_arg2 m ρ c)
theorem w2_arg3 (c : Dev nD) : W2 m ρ c (Proc.devRef .tc main_arg3) = m ((c.tc : Thread nD τ).loc main_arg3) :=
  (keep0_1_arg3 (W1 m ρ c)).trans (w1_arg3 m ρ c)
theorem w2_arg4 (c : Dev nD) : W2 m ρ c (Proc.devRef .tc main_arg4) = m ((c.tc : Thread nD τ).loc main_arg4) :=
  (keep0_1_arg4 (W1 m ρ c)).trans (w1_arg4 m ρ c)
theorem w2_arg5 (c : Dev nD) : W2 m ρ c (Proc.devRef .tc main_arg5) = m ((c.tc : Thread nD τ).loc main_arg5) :=
  (keep0_1_arg5 (W1 m ρ c)).trans (w1_arg5 m ρ c)

/-! ## At the first grid's entry (the edge weights) -/

/-- norm(j) = dinv(src j) · dinv(dst j). -/
theorem w3_norm (c : Dev nD) : W3 m ρ c (Proc.devRef .tc main_v29) = Cert.Gcn.norm (F := Ideal) (m ((c.tc : Thread nD τ).loc main_arg1)) := by
  refine (s02_norm (W2 m ρ c)).trans ?_
  rw [w2_dinv, w2_srcs, w2_dsts]
  rfl
theorem w3_srcs (c : Dev nD) : W3 m ρ c (Proc.devRef .tc main_v5) = Cert.Gcn.srcs (m ((c.tc : Thread nD τ).loc main_arg1)) :=
  (keep0_2_v5 (W2 m ρ c)).trans (w2_srcs m ρ c)
theorem w3_dsts (c : Dev nD) : W3 m ρ c (Proc.devRef .tc main_v6) = Cert.Gcn.dsts (m ((c.tc : Thread nD τ).loc main_arg1)) :=
  (keep0_2_v6 (W2 m ρ c)).trans (w2_dsts m ρ c)
theorem w3_arg0 (c : Dev nD) : W3 m ρ c (Proc.devRef .tc main_arg0) = m ((c.tc : Thread nD τ).loc main_arg0) :=
  (keep0_2_arg0 (W2 m ρ c)).trans (w2_arg0 m ρ c)
theorem w3_arg2 (c : Dev nD) : W3 m ρ c (Proc.devRef .tc main_arg2) = m ((c.tc : Thread nD τ).loc main_arg2) :=
  (keep0_2_arg2 (W2 m ρ c)).trans (w2_arg2 m ρ c)
theorem w3_arg3 (c : Dev nD) : W3 m ρ c (Proc.devRef .tc main_arg3) = m ((c.tc : Thread nD τ).loc main_arg3) :=
  (keep0_2_arg3 (W2 m ρ c)).trans (w2_arg3 m ρ c)
theorem w3_arg4 (c : Dev nD) : W3 m ρ c (Proc.devRef .tc main_arg4) = m ((c.tc : Thread nD τ).loc main_arg4) :=
  (keep0_2_arg4 (W2 m ρ c)).trans (w2_arg4 m ρ c)
theorem w3_arg5 (c : Dev nD) : W3 m ρ c (Proc.devRef .tc main_arg5) = m ((c.tc : Thread nD τ).loc main_arg5) :=
  (keep0_2_arg5 (W2 m ρ c)).trans (w2_arg5 m ρ c)

/-! ## Through the first grid -/

/-- The first grid's output array: the whole product x · W1. -/
theorem w4_product (c : Dev nD) : W4 m ρ c (Proc.devRef .tc main_v30) = Cert.Gcn.matProd (m := 100000) (K := 256) (n := 16) (m ((c.tc : Thread nD τ).loc main_arg0)) (m ((c.tc : Thread nD τ).loc main_arg2)) := by
  refine (W4_arr m ρ c 2).trans ?_
  refine (Cert.KernelIdeal.Blocks.product0 (V3 m ρ) c).trans ?_
  show Cert.Gcn.matProd (m := 100000) (K := 256) (n := 16) (W3 m ρ c (Proc.devRef .tc main_arg0)) (W3 m ρ c (Proc.devRef .tc main_arg2)) = _
  rw [w3_arg0, w3_arg2]
theorem w4_srcs (c : Dev nD) : W4 m ρ c (Proc.devRef .tc main_v5) = Cert.Gcn.srcs (m ((c.tc : Thread nD τ).loc main_arg1)) :=
  (W4_of_ne m ρ c main_v5 (by decide)).trans (w3_srcs m ρ c)
theorem w4_dsts (c : Dev nD) : W4 m ρ c (Proc.devRef .tc main_v6) = Cert.Gcn.dsts (m ((c.tc : Thread nD τ).loc main_arg1)) :=
  (W4_of_ne m ρ c main_v6 (by decide)).trans (w3_dsts m ρ c)
theorem w4_norm (c : Dev nD) : W4 m ρ c (Proc.devRef .tc main_v29) = Cert.Gcn.norm (F := Ideal) (m ((c.tc : Thread nD τ).loc main_arg1)) :=
  (W4_of_ne m ρ c main_v29 (by decide)).trans (w3_norm m ρ c)
theorem w4_arg3 (c : Dev nD) : W4 m ρ c (Proc.devRef .tc main_arg3) = m ((c.tc : Thread nD τ).loc main_arg3) :=
  (W4_of_ne m ρ c main_arg3 (by decide)).trans (w3_arg3 m ρ c)
theorem w4_arg4 (c : Dev nD) : W4 m ρ c (Proc.devRef .tc main_arg4) = m ((c.tc : Thread nD τ).loc main_arg4) :=
  (W4_of_ne m ρ c main_arg4 (by decide)).trans (w3_arg4 m ρ c)
theorem w4_arg5 (c : Dev nD) : W4 m ρ c (Proc.devRef .tc main_arg5) = m ((c.tc : Thread nD τ).loc main_arg5) :=
  (W4_of_ne m ρ c main_arg5 (by decide)).trans (w3_arg5 m ρ c)

/-! ## The first layer -/

/-- The first product aggregated over the graph, plus b1. -/
theorem w5_layer (c : Dev nD) : W5 m ρ c (Proc.devRef .tc main_v46) = Cert.Gcn.layer16 (F := Ideal) (m ((c.tc : Thread nD τ).loc main_arg1)) (Cert.Gcn.matProd (m := 100000) (K := 256) (n := 16) (m ((c.tc : Thread nD τ).loc main_arg0)) (m ((c.tc : Thread nD τ).loc main_arg2))) (m ((c.tc : Thread nD τ).loc main_arg3)) := by
  refine (s1_layer (W4 m ρ c)).trans ?_
  rw [w4_srcs, w4_dsts, w4_norm, w4_product, w4_arg3]
  rfl
theorem w5_srcs (c : Dev nD) : W5 m ρ c (Proc.devRef .tc main_v5) = Cert.Gcn.srcs (m ((c.tc : Thread nD τ).loc main_arg1)) :=
  (keep1_v5 (W4 m ρ c)).trans (w4_srcs m ρ c)
theorem w5_dsts (c : Dev nD) : W5 m ρ c (Proc.devRef .tc main_v6) = Cert.Gcn.dsts (m ((c.tc : Thread nD τ).loc main_arg1)) :=
  (keep1_v6 (W4 m ρ c)).trans (w4_dsts m ρ c)
theorem w5_norm (c : Dev nD) : W5 m ρ c (Proc.devRef .tc main_v29) = Cert.Gcn.norm (F := Ideal) (m ((c.tc : Thread nD τ).loc main_arg1)) :=
  (keep1_v29 (W4 m ρ c)).trans (w4_norm m ρ c)
theorem w5_arg4 (c : Dev nD) : W5 m ρ c (Proc.devRef .tc main_arg4) = m ((c.tc : Thread nD τ).loc main_arg4) :=
  (keep1_arg4 (W4 m ρ c)).trans (w4_arg4 m ρ c)
theorem w5_arg5 (c : Dev nD) : W5 m ρ c (Proc.devRef .tc main_arg5) = m ((c.tc : Thread nD τ).loc main_arg5) :=
  (keep1_arg5 (W4 m ρ c)).trans (w4_arg5 m ρ c)

/-- The hidden features: relu of the first layer. -/
theorem w6_hidden (c : Dev nD) : W6 m ρ c (Proc.devRef .tc main_v47) = Cert.Gcn.hidden (F := Ideal) (m ((c.tc : Thread nD τ).loc main_arg1)) (Cert.Gcn.matProd (m := 100000) (K := 256) (n := 16) (m ((c.tc : Thread nD τ).loc main_arg0)) (m ((c.tc : Thread nD τ).loc main_arg2))) (m ((c.tc : Thread nD τ).loc main_arg3)) := by
  refine (s11_relu (W5 m ρ c)).trans ?_
  rw [w5_layer]
  rfl
theorem w6_srcs (c : Dev nD) : W6 m ρ c (Proc.devRef .tc main_v5) = Cert.Gcn.srcs (m ((c.tc : Thread nD τ).loc main_arg1)) :=
  (keep1_1_v5 (W5 m ρ c)).trans (w5_srcs m ρ c)
theorem w6_dsts (c : Dev nD) : W6 m ρ c (Proc.devRef .tc main_v6) = Cert.Gcn.dsts (m ((c.tc : Thread nD τ).loc main_arg1)) :=
  (keep1_1_v6 (W5 m ρ c)).trans (w5_dsts m ρ c)
theorem w6_norm (c : Dev nD) : W6 m ρ c (Proc.devRef .tc main_v29) = Cert.Gcn.norm (F := Ideal) (m ((c.tc : Thread nD τ).loc main_arg1)) :=
  (keep1_1_v29 (W5 m ρ c)).trans (w5_norm m ρ c)
theorem w6_arg4 (c : Dev nD) : W6 m ρ c (Proc.devRef .tc main_arg4) = m ((c.tc : Thread nD τ).loc main_arg4) :=
  (keep1_1_arg4 (W5 m ρ c)).trans (w5_arg4 m ρ c)
theorem w6_arg5 (c : Dev nD) : W6 m ρ c (Proc.devRef .tc main_arg5) = m ((c.tc : Thread nD τ).loc main_arg5) :=
  (keep1_1_arg5 (W5 m ρ c)).trans (w5_arg5 m ρ c)

/-! ## Through the second grid -/

/-- The second grid's output array: the whole product (hidden features) · W2. -/
theorem w7_product (c : Dev nD) : W7 m ρ c (Proc.devRef .tc main_v48) = Cert.Gcn.matProd (m := 100000) (K := 16) (n := 64) (Cert.Gcn.hidden (F := Ideal) (m ((c.tc : Thread nD τ).loc main_arg1)) (Cert.Gcn.matProd (m := 100000) (K := 256) (n := 16) (m ((c.tc : Thread nD τ).loc main_arg0)) (m ((c.tc : Thread nD τ).loc main_arg2))) (m ((c.tc : Thread nD τ).loc main_arg3))) (m ((c.tc : Thread nD τ).loc main_arg4)) := by
  refine (W7_arr m ρ c 2).trans ?_
  refine (Cert.KernelIdeal.Blocks.product1 (V6 m ρ) c).trans ?_
  show Cert.Gcn.matProd (m := 100000) (K := 16) (n := 64) (W6 m ρ c (Proc.devRef .tc main_v47)) (W6 m ρ c (Proc.devRef .tc main_arg4)) = _
  rw [w6_hidden, w6_arg4]
theorem w7_srcs (c : Dev nD) : W7 m ρ c (Proc.devRef .tc main_v5) = Cert.Gcn.srcs (m ((c.tc : Thread nD τ).loc main_arg1)) :=
  (W7_of_ne m ρ c main_v5 (by decide)).trans (w6_srcs m ρ c)
theorem w7_dsts (c : Dev nD) : W7 m ρ c (Proc.devRef .tc main_v6) = Cert.Gcn.dsts (m ((c.tc : Thread nD τ).loc main_arg1)) :=
  (W7_of_ne m ρ c main_v6 (by decide)).trans (w6_dsts m ρ c)
theorem w7_norm (c : Dev nD) : W7 m ρ c (Proc.devRef .tc main_v29) = Cert.Gcn.norm (F := Ideal) (m ((c.tc : Thread nD τ).loc main_arg1)) :=
  (W7_of_ne m ρ c main_v29 (by decide)).trans (w6_norm m ρ c)
theorem w7_arg5 (c : Dev nD) : W7 m ρ c (Proc.devRef .tc main_arg5) = m ((c.tc : Thread nD τ).loc main_arg5) :=
  (W7_of_ne m ρ c main_arg5 (by decide)).trans (w6_arg5 m ρ c)

/-! ## The result -/

/-- The last boundary's contents at the result buffer: the second product aggregated over the same graph, plus b2. -/
theorem result (c : Dev nD) :
    W8 m ρ c (Proc.devRef .tc main_v64) = Cert.Gcn.layer64 (F := Ideal) (m ((c.tc : Thread nD τ).loc main_arg1)) (Cert.Gcn.matProd (m := 100000) (K := 16) (n := 64) (Cert.Gcn.hidden (F := Ideal) (m ((c.tc : Thread nD τ).loc main_arg1)) (Cert.Gcn.matProd (m := 100000) (K := 256) (n := 16) (m ((c.tc : Thread nD τ).loc main_arg0)) (m ((c.tc : Thread nD τ).loc main_arg2))) (m ((c.tc : Thread nD τ).loc main_arg3))) (m ((c.tc : Thread nD τ).loc main_arg4))) (m ((c.tc : Thread nD τ).loc main_arg5)) := by
  refine (s2_layer (W7 m ρ c)).trans ?_
  rw [w7_srcs, w7_dsts, w7_norm, w7_product, w7_arg5]
  rfl

end Cert.KernelIdeal.Fold

end
-- ==== Proof.lean ====
/-
  The certificate of a two-layer graph convolution: a kernel program that computes the two dense products x · W1 and h · W2
  on the matrix unit, tiled over row blocks (20 blocks of 5000 rows, then 10 blocks of 10000 rows, operands rounded to bf16 on
  the way in), with the sparse aggregation around them on the host, against a reference that does everything on the host.

  On the extended reals both programs compute
        out = layer (relu (layer (x · W1) b1) · W2) b2,     layer h b (v, c) = Σ_{j : dst j = v} norm(j) · h(src j, c) + b(c),
  over the same edge lists (the given edges followed by one self-loop per node) and the same edge weights
  norm(j) = dinv(src j) · dinv(dst j), dinv = deg^(-1/2) where deg > 0 and 0 elsewhere.  They differ in two ways only.
  (1) The kernel computes a product block by block: rounding to bf16 is the identity on the extended reals, the matrix
  unit's product into a zero accumulator is the sum Σ_k l(p, k) · r(k, q), block t holds rows of the whole product, and the
  blocks tile the output; the host's dot_general is the same sum.  (2) The kernel computes the edge lists and weights once,
  the reference once per layer — from the same edge array, hence the same values.  No law of arithmetic beyond the meaning
  of a matrix product is used, so the precondition (finite inputs) is never opened.

  The three frame claims: the two kernel programs' are the generated frame certificates; the reference's is its run with the
  result dropped.  The idealization rewrote nothing, so the preservation claim is trivial.
-/
import proofs.«177318_j70669391888552_1_alg».proof.Defs
import proofs.«177318_j70669391888552_1_alg».proof.Proof.Gen.Kernel
import proofs.«177318_j70669391888552_1_alg».proof.Proof.Gen.Kernel.Skeleton
import proofs.«177318_j70669391888552_1_alg».proof.Proof.Gen.Kernel.Launch
import proofs.«177318_j70669391888552_1_alg».proof.Proof.Gen.Kernel.Points
import proofs.«177318_j70669391888552_1_alg».proof.Proof.Gen.Kernel.Frame
import proofs.«177318_j70669391888552_1_alg».proof.Proof.Gen.KernelIdeal
import proofs.«177318_j70669391888552_1_alg».proof.Proof.Gen.KernelIdeal.Skeleton
import proofs.«177318_j70669391888552_1_alg».proof.Proof.Gen.KernelIdeal.Launch
import proofs.«177318_j70669391888552_1_alg».proof.Proof.Gen.KernelIdeal.Points
import proofs.«177318_j70669391888552_1_alg».proof.Proof.Gen.KernelIdeal.Frame
import proofs.«177318_j70669391888552_1_alg».proof.Proof.Gen.ReferenceIdeal
import proofs.«177318_j70669391888552_1_alg».proof.Proof.Gen.Pre_finite_inputs
import proofs.«177318_j70669391888552_1_alg».proof.Proof.RefRun
import proofs.«177318_j70669391888552_1_alg».proof.Proof.RefIsSpec
import proofs.«177318_j70669391888552_1_alg».proof.Proof.ProductIsHost
import proofs.«177318_j70669391888552_1_alg».proof.Proof.KernelRun
import proofs.«177318_j70669391888552_1_alg».proof.Proof.KernelFold
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the two-layer function of the (agreeing) arguments in their result arrays: the kernel program by
    its run and the walk through its boundaries, the reference by its run and its result term, whose two host products are
    the textbook products the kernel's grids leave. -/
theorem algebraic : Cert.algebraic_KernelIdeal_ReferenceIdeal := by
  intro m ρ m' ρ' _ hagree
  refine ⟨fun c => Cert.Gcn.layer64 (F := Ideal) (m ((c.tc : Thread Cert.KernelIdeal.nD Cert.KernelIdeal.τ).loc Cert.KernelIdeal.main_arg1)) (Cert.Gcn.matProd (m := 100000) (K := 16) (n := 64) (Cert.Gcn.hidden (F := Ideal) (m ((c.tc : Thread Cert.KernelIdeal.nD Cert.KernelIdeal.τ).loc Cert.KernelIdeal.main_arg1)) (Cert.Gcn.matProd (m := 100000) (K := 256) (n := 16) (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3))) (m ((c.tc : Thread Cert.KernelIdeal.nD Cert.KernelIdeal.τ).loc Cert.KernelIdeal.main_arg4))) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result m ρ c), (h c).2⟩)
      (Cert.KernelIdeal.RunValue.run_result m ρ)
  · refine (θ_run Cert.ReferenceIdeal.defs _ _).mono (fun r h c => ⟨(h c).1.trans ?_, (h c).2⟩)
      (Cert.ReferenceIdeal.ValueP.run (F := Ideal) m' ρ')
    refine (Cert.Gcn.reference_result m' c).trans ?_
    obtain ⟨a0, a1, a2, a3, a4, a5⟩ := hagree c
    rw [a0, a1, a2, a3, a4, a5, Cert.Gcn.prod1_eq, Cert.Gcn.prod2_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
